-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S512x1024 .f32) (main_arg13 : FVec F S1024x1024 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_v63 main_v67

def fn_part2 {F : FTy → Type} [FloatOps F] (main_arg7 : FVec F S1024x1024 .f32) (main_arg8 : FVec F S512x1024 .f32) (main_arg9 : FVec F S1024x1024 .f32) (main_arg10 : FVec F S512x1024 .f32) (main_arg11 : FVec F S1024x1024 .f32) (main_arg12 : FVec F S512x1024 .f32) (main_arg13 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_v48 main_v49 main_v50

def fn_part1 {F : FTy → Type} [FloatOps F] (main_arg4 : FVec F S1024 .f32) (main_arg5 : FVec F S1024 .f32) (main_arg6 : FVec F S512x1024 .f32) (main_arg7 : FVec F S1024x1024 .f32) (main_arg8 : FVec F S512x1024 .f32) (main_arg9 : FVec F S1024x1024 .f32) (main_arg10 : FVec F S512x1024 .f32) (main_arg11 : FVec F S1024x1024 .f32) (main_arg12 : FVec F S512x1024 .f32) (main_arg13 : FVec F S1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x512 .f32) (main_arg1 : FVec F S8192x1024 .f32) (main_arg2 : FVec F S8192x1024 .f32) (main_arg3 : FVec F S1024 .f32) (main_arg4 : FVec F S1024 .f32) (main_arg5 : FVec F S1024 .f32) (main_arg6 : FVec F S512x1024 .f32) (main_arg7 : FVec F S1024x1024 .f32) (main_arg8 : FVec F S512x1024 .f32) (main_arg9 : FVec F S1024x1024 .f32) (main_arg10 : FVec F S512x1024 .f32) (main_arg11 : FVec F S1024x1024 .f32) (main_arg12 : FVec F S512x1024 .f32) (main_arg13 : FVec F S1024x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x512 : Shape := ⟨2, ![8192, 512]⟩
abbrev S8192x1024 : Shape := ⟨2, ![8192, 1024]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S512x4096 : Shape := ⟨2, ![512, 4096]⟩
abbrev S1024x4096 : Shape := ⟨2, ![1024, 4096]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 23
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S512x1024, .f32⟩
  | .hbm, ⟨11, _⟩ => ⟨S1024x1024, .f32⟩
  | .hbm, ⟨12, _⟩ => ⟨S512x1024, .f32⟩
  | .hbm, ⟨13, _⟩ => ⟨S1024x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S512x4096, .f32⟩
  | .hbm, ⟨18, _⟩ => ⟨S512x4096, .bf16⟩
  | .hbm, ⟨19, _⟩ => ⟨S1024x4096, .f32⟩
  | .hbm, ⟨20, _⟩ => ⟨S1024x4096, .bf16⟩
  | .hbm, ⟨21, _⟩ => ⟨S8192x1024, .f32⟩
  | .hbm, ⟨22, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x4096, .bf16⟩
  | .local _ .vmem, ⟨10, _⟩ => ⟨S1024x4096, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1024_S1x1024 : S1024.ShapeCasts S1x1024
  concatenates_S512x1024_S512x1024_S512x1024_S512x1024_S512x4096_d1 : Shape.Concatenates [S512x1024, S512x1024, S512x1024, S512x1024] S512x4096 1
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S256x4096_o0_0_S256x1024 : S256x4096.Slices ![0, 0] S256x1024
  broadcasts_S1x1024_S256x1024 : S1x1024.Broadcasts S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S512x4096.size a
  hwx0_6 : ∀ i : grid0.Coords, EltTy.bits .bf16 = 32 ∨ (Rect.block (s := S512x4096) S512x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S512x1024, .f32⟩
  | .hbm, ⟨11, _⟩ => ⟨S1024x1024, .f32⟩
  | .hbm, ⟨12, _⟩ => ⟨S512x1024, .f32⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x512_S512x1024_S8192x1024_1_0_0_1_n_n_wf : DotDims.WF S8192x512 S512x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.EntryKernel.lean ====
/-
  The program up to its one pallas_call. Seven host operations come first: the three peephole vectors are reshaped
  to one-row matrices, the four input-side weight matrices are laid side by side along the columns and rounded to
  bf16, and likewise the four hidden-side ones. `V` is what every buffer holds when the region is entered (the
  fold of those operations over the launch memory); none of them writes an argument array, so each argument is
  found as launched.
-/
import proofs.«155535_j8873402434093_2_alg».proof.Proof.Gen.Kernel.Launch
import Idealize.ShloMosaic.Lib.Pipeline.FrameBody

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch memory after the seven host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))

end Cert.Kernel.Fr

end
-- ==== Proof.FrameKernel.lean ====
/-
  The frame of the program: it runs to the end, faults nowhere and leaves its argument arrays as launched.

  The pallas_call has a grid of 32 points; at point `t` the pipeline hands the body rows `256·t … 256·t + 255` of the
  input, the previous hidden state and the previous cell state, and (fetched once, at the first point) the three
  one-row peephole vectors and the two fused bf16 weight matrices whole. The body loads all eight whole, computes, and
  stores the new hidden state and the new cell state whole into the two output blocks, which the pipeline writes
  back to rows `256·t …` of the two results. So after the body each input buffer still holds its block
  (`iblk`), and each output buffer holds one whole-block store of a pure function of the eight input blocks
  (`out0_8`, `out0_9`: the body's arithmetic is carried as the named payloads, never opened here). With that proof
  data the library's frame run gives every result array as the blocks written back and every other buffer as the
  region found it; the argument arrays are inputs or untouched, hence as launched.
-/
import proofs.«155535_j8873402434093_2_alg».proof.Proof.EntryKernel
import proofs.«155535_j8873402434093_2_alg».proof.Proof.Gen.Kernel.Skeleton
import proofs.«155535_j8873402434093_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (an unfetched window's block index has not moved), for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three batch arrays are input windows, never written back; the other eleven arguments are staged by no
    window and are found as the region found them; and the host operations before the region write none of the
    fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses: every load and store is of a whole buffer -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rP : Rect S1x1024 := Rect.unit (s := S1x1024) ![0, 0] S1x1024.size inb_S1x1024_S1x1024_0_0
abbrev rWx : Rect S512x4096 := Rect.unit (s := S512x4096) ![0, 0] S512x4096.size inb_S512x4096_S512x4096_0_0
abbrev rWh : Rect S1024x4096 := Rect.unit (s := S1024x4096) ![0, 0] S1024x4096.size inb_S1024x4096_S1024x4096_0_0

/-! ## What the body leaves in each output buffer -/

/-- The first output's buffer after the body: one whole-block store of the new hidden state. -/
def out0_8 (x0 : Vec F S256x512 .f32) (x1 : Vec F S256x1024 .f32) (x2 : Vec F S256x1024 .f32) (x3 : Vec F S1x1024 .f32) (x4 : Vec F S1x1024 .f32) (x5 : Vec F S1x1024 .f32) (x6 : Vec F S512x4096 .bf16) (x7 : Vec F S1024x4096 .bf16) : Vec F S256x1024 .f32 :=
  View.canon [⟨rH, k0_pay1 (k0_pay2 (View.ld x5 rP)) (k0_pay5 (View.ld x0 rX) (View.ld x1 rH) (View.ld x2 rH) (View.ld x3 rP) (View.ld x4 rP) (View.ld x6 rWx) (View.ld x7 rWh)) (k0_pay6 (View.ld x0 rX) (View.ld x1 rH) (View.ld x6 rWx) (View.ld x7 rWh))⟩]

/-- The second output's buffer after the body: one whole-block store of the new cell state. -/
def out0_9 (x0 : Vec F S256x512 .f32) (x1 : Vec F S256x1024 .f32) (x2 : Vec F S256x1024 .f32) (x3 : Vec F S1x1024 .f32) (x4 : Vec F S1x1024 .f32) (x5 : Vec F S1x1024 .f32) (x6 : Vec F S512x4096 .bf16) (x7 : Vec F S1024x4096 .bf16) : Vec F S256x1024 .f32 :=
  View.canon [⟨rH, (k0_pay5 (View.ld x0 rX) (View.ld x1 rH) (View.ld x2 rH) (View.ld x3 rP) (View.ld x4 rP) (View.ld x6 rWx) (View.ld x7 rWh))⟩]

/-- A whole-block store covers the block. -/
theorem cover0_H (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 4000000 in
/-- The body on whole staging buffers, the inputs' at contents `xW` and the outputs' at anything, runs to the
    continuation holding the inputs' as they were and the outputs' at `out0_8`, `out0_9` of the inputs'. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S1024x4096 .bf16) (harg8 : arg8.IsWhole) (arg9 : Memref sig .tc .vmem S256x1024 .f32) (harg9 : arg9.IsWhole) (arg10 : Memref sig .tc .vmem S256x1024 .f32) (harg10 : arg10.IsWhole)
    (x0 : Vec F S256x512 .f32) (x1 : Vec F S256x1024 .f32) (x2 : Vec F S256x1024 .f32) (x3 : Vec F S1x1024 .f32) (x4 : Vec F S1x1024 .f32) (x5 : Vec F S1x1024 .f32) (x6 : Vec F S512x4096 .bf16) (x7 : Vec F S1024x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__peephole_lstm_kernel i arg1 harg1 arg2 harg2 arg3 harg3 arg4 harg4 arg5 harg5 arg6 harg6 arg7 harg7 arg8 harg8 arg9 harg9 arg10 harg10) K := by
  simp only [cc0__peephole_lstm_kernel_eq_skeleton]; unfold cc0__peephole_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_H _)
  iexists _; isplitr
  swap; · iexact H9
  ipureintro
  try dsimp only
  exact View.read_writes_eq_canon _ _ _ (cover0_H _)

/-! ## The pipeline's proof data -/

/-- On core `c`: the arrays as the region finds them; after the body at point `t` each input's buffer at its block
    and each output's at `out0_W` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (the definition projected; the fold `V` is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Fr

end
-- ==== Proof.EntryIdeal.lean ====
/-
  The program up to its one pallas_call. Seven host operations come first: the three peephole vectors are reshaped
  to one-row matrices, the four input-side weight matrices are laid side by side along the columns and rounded to
  bf16, and likewise the four hidden-side ones. `V` is what every buffer holds when the region is entered (the
  fold of those operations over the launch memory); none of them writes an argument array, so each argument is
  found as launched.
-/
import proofs.«155535_j8873402434093_2_alg».proof.Proof.Gen.KernelIdeal.Launch
import Idealize.ShloMosaic.Lib.Pipeline.FrameBody

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch memory after the seven host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.unary_writes, StableHlo.nary_writes, StableHlo.reshape_writes, Finset.mem_singleton]
    repeat' apply And.intro
    all_goals exact StableHlo.devRef_ne_of_ne (by decide)))

end Cert.KernelIdeal.Fr

end
-- ==== Proof.FrameIdeal.lean ====
/-
  The frame of the program: it runs to the end, faults nowhere and leaves its argument arrays as launched.

  The pallas_call has a grid of 32 points; at point `t` the pipeline hands the body rows `256·t … 256·t + 255` of the
  input, the previous hidden state and the previous cell state, and (fetched once, at the first point) the three
  one-row peephole vectors and the two fused bf16 weight matrices whole. The body loads all eight whole, computes, and
  stores the new hidden state and the new cell state whole into the two output blocks, which the pipeline writes
  back to rows `256·t …` of the two results. So after the body each input buffer still holds its block
  (`iblk`), and each output buffer holds one whole-block store of a pure function of the eight input blocks
  (`out0_8`, `out0_9`: the body's arithmetic is carried as the named payloads, never opened here). With that proof
  data the library's frame run gives every result array as the blocks written back and every other buffer as the
  region found it; the argument arrays are inputs or untouched, hence as launched.
-/
import proofs.«155535_j8873402434093_2_alg».proof.Proof.EntryIdeal
import proofs.«155535_j8873402434093_2_alg».proof.Proof.Gen.KernelIdeal.Skeleton
import proofs.«155535_j8873402434093_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (an unfetched window's block index has not moved), for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three batch arrays are input windows, never written back; the other eleven arguments are staged by no
    window and are found as the region found them; and the host operations before the region write none of the
    fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses: every load and store is of a whole buffer -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rP : Rect S1x1024 := Rect.unit (s := S1x1024) ![0, 0] S1x1024.size inb_S1x1024_S1x1024_0_0
abbrev rWx : Rect S512x4096 := Rect.unit (s := S512x4096) ![0, 0] S512x4096.size inb_S512x4096_S512x4096_0_0
abbrev rWh : Rect S1024x4096 := Rect.unit (s := S1024x4096) ![0, 0] S1024x4096.size inb_S1024x4096_S1024x4096_0_0

/-! ## What the body leaves in each output buffer -/

/-- The first output's buffer after the body: one whole-block store of the new hidden state. -/
def out0_8 (x0 : Vec F S256x512 .f32) (x1 : Vec F S256x1024 .f32) (x2 : Vec F S256x1024 .f32) (x3 : Vec F S1x1024 .f32) (x4 : Vec F S1x1024 .f32) (x5 : Vec F S1x1024 .f32) (x6 : Vec F S512x4096 .bf16) (x7 : Vec F S1024x4096 .bf16) : Vec F S256x1024 .f32 :=
  View.canon [⟨rH, k0_pay1 (k0_pay2 (View.ld x5 rP)) (k0_pay5 (View.ld x0 rX) (View.ld x1 rH) (View.ld x2 rH) (View.ld x3 rP) (View.ld x4 rP) (View.ld x6 rWx) (View.ld x7 rWh)) (k0_pay6 (View.ld x0 rX) (View.ld x1 rH) (View.ld x6 rWx) (View.ld x7 rWh))⟩]

/-- The second output's buffer after the body: one whole-block store of the new cell state. -/
def out0_9 (x0 : Vec F S256x512 .f32) (x1 : Vec F S256x1024 .f32) (x2 : Vec F S256x1024 .f32) (x3 : Vec F S1x1024 .f32) (x4 : Vec F S1x1024 .f32) (x5 : Vec F S1x1024 .f32) (x6 : Vec F S512x4096 .bf16) (x7 : Vec F S1024x4096 .bf16) : Vec F S256x1024 .f32 :=
  View.canon [⟨rH, (k0_pay5 (View.ld x0 rX) (View.ld x1 rH) (View.ld x2 rH) (View.ld x3 rP) (View.ld x4 rP) (View.ld x6 rWx) (View.ld x7 rWh))⟩]

/-- A whole-block store covers the block. -/
theorem cover0_H (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 4000000 in
/-- The body on whole staging buffers, the inputs' at contents `xW` and the outputs' at anything, runs to the
    continuation holding the inputs' as they were and the outputs' at `out0_8`, `out0_9` of the inputs'. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S1024x4096 .bf16) (harg8 : arg8.IsWhole) (arg9 : Memref sig .tc .vmem S256x1024 .f32) (harg9 : arg9.IsWhole) (arg10 : Memref sig .tc .vmem S256x1024 .f32) (harg10 : arg10.IsWhole)
    (x0 : Vec F S256x512 .f32) (x1 : Vec F S256x1024 .f32) (x2 : Vec F S256x1024 .f32) (x3 : Vec F S1x1024 .f32) (x4 : Vec F S1x1024 .f32) (x5 : Vec F S1x1024 .f32) (x6 : Vec F S512x4096 .bf16) (x7 : Vec F S1024x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__peephole_lstm_kernel i arg1 harg1 arg2 harg2 arg3 harg3 arg4 harg4 arg5 harg5 arg6 harg6 arg7 harg7 arg8 harg8 arg9 harg9 arg10 harg10) K := by
  simp only [cc0__peephole_lstm_kernel_eq_skeleton]; unfold cc0__peephole_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_H _)
  iexists _; isplitr
  swap; · iexact H9
  ipureintro
  try dsimp only
  exact View.read_writes_eq_canon _ _ _ (cover0_H _)

/-! ## The pipeline's proof data -/

/-- On core `c`: the arrays as the region finds them; after the body at point `t` each input's buffer at its block
    and each output's at `out0_W` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (the definition projected; the fold `V` is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Fr

end
-- ==== Proof.Spec.lean ====
/-
  A peephole LSTM cell, entry by entry, on the extended reals.

  For batch row `p` and hidden unit `q` every gate's pre-activation is the input row against one column of an
  input-side weight plus the hidden row against one column of a hidden-side weight (`pre`); the forget and input
  gates add the previous cell value times a peephole weight and pass through the logistic function, the candidate
  passes through tanh, the new cell value is `f·c + i·g` (`cell`), and the output gate sees the NEW cell value
  through its own peephole weight, the hidden value being `o · tanh(cell)` (`hidden`). The functions take the two
  rows and the weight columns as functions of the contracted coordinate, so that the same text reads a block of 256
  rows against a fused weight matrix and the whole batch against the eight separate ones.
-/
import Idealize.ShloMosaic.PureOps.Ideal
import Idealize.ShloMosaic.Lib.ValueIdx

noncomputable section

open scoped BigOperators

namespace Cert.Peephole

open Idealize.ShloMosaic Idealize.ShloMosaic.ValueIdx

/-- One gate's pre-activation without its peephole term: input row · input-weight column + hidden row ·
    hidden-weight column. -/
def pre (xr : Fin 512 → EReal) (hr : Fin 1024 → EReal) (wi : Fin 512 → EReal) (wh : Fin 1024 → EReal) : EReal :=
  (∑ d : Fin 512, xr d * wi d) + (∑ d : Fin 1024, hr d * wh d)

/-- The new cell value: `σ(pre_f + c·w_cf) · c + σ(pre_i + c·w_ci) · tanh(pre_g)`. -/
def cell (xr : Fin 512 → EReal) (hr : Fin 1024 → EReal) (cv : EReal)
    (wif : Fin 512 → EReal) (whf : Fin 1024 → EReal) (wii : Fin 512 → EReal) (whi : Fin 1024 → EReal)
    (wig : Fin 512 → EReal) (whg : Fin 1024 → EReal) (wcf wci : EReal) : EReal :=
  Ideal.logistic (pre xr hr wif whf + cv * wcf) * cv
    + Ideal.logistic (pre xr hr wii whi + cv * wci) * Ideal.tanh (pre xr hr wig whg)

/-- The new hidden value from the new cell value `cs`: `σ(pre_o + cs·w_co) · tanh(cs)`. -/
def hidden (xr : Fin 512 → EReal) (hr : Fin 1024 → EReal) (cs : EReal)
    (wio : Fin 512 → EReal) (who : Fin 1024 → EReal) (wco : EReal) : EReal :=
  Ideal.logistic (pre xr hr wio who + cs * wco) * Ideal.tanh cs

/-- Column `q` of gate `k` (forget, input, candidate, output in that order) in a weight matrix whose four gates'
    columns are laid side by side: `1024·k + q`. -/
def gateCol (k : Fin 4) (q : Fin 1024) : Fin 4096 := ⟨1024 * k.val + q.val, by have := k.isLt; have := q.isLt; omega⟩

@[simp] theorem gateCol_val (k : Fin 4) (q : Fin 1024) : (gateCol k q).val = 1024 * k.val + q.val := rfl

/-- The arrays of the whole batch: the new cell state at row `p`, unit `q`. -/
def cellArr (x : (⟨2, ![8192, 512]⟩ : Shape).Idx → EReal) (h c : (⟨2, ![8192, 1024]⟩ : Shape).Idx → EReal)
    (wci wcf : (⟨1, ![1024]⟩ : Shape).Idx → EReal)
    (Wif : (⟨2, ![512, 1024]⟩ : Shape).Idx → EReal) (Whf : (⟨2, ![1024, 1024]⟩ : Shape).Idx → EReal)
    (Wii : (⟨2, ![512, 1024]⟩ : Shape).Idx → EReal) (Whi : (⟨2, ![1024, 1024]⟩ : Shape).Idx → EReal)
    (Wig : (⟨2, ![512, 1024]⟩ : Shape).Idx → EReal) (Whg : (⟨2, ![1024, 1024]⟩ : Shape).Idx → EReal)
    (p : Fin 8192) (q : Fin 1024) : EReal :=
  cell (fun d => x (ix2 p d)) (fun d => h (ix2 p d)) (c (ix2 p q))
    (fun d => Wif (ix2 d q)) (fun d => Whf (ix2 d q)) (fun d => Wii (ix2 d q)) (fun d => Whi (ix2 d q))
    (fun d => Wig (ix2 d q)) (fun d => Whg (ix2 d q)) (wcf (ix1 q)) (wci (ix1 q))

/-- The arrays of the whole batch: the new hidden state at row `p`, unit `q`. -/
def hiddenArr (x : (⟨2, ![8192, 512]⟩ : Shape).Idx → EReal) (h c : (⟨2, ![8192, 1024]⟩ : Shape).Idx → EReal)
    (wci wcf wco : (⟨1, ![1024]⟩ : Shape).Idx → EReal)
    (Wif : (⟨2, ![512, 1024]⟩ : Shape).Idx → EReal) (Whf : (⟨2, ![1024, 1024]⟩ : Shape).Idx → EReal)
    (Wii : (⟨2, ![512, 1024]⟩ : Shape).Idx → EReal) (Whi : (⟨2, ![1024, 1024]⟩ : Shape).Idx → EReal)
    (Wig : (⟨2, ![512, 1024]⟩ : Shape).Idx → EReal) (Whg : (⟨2, ![1024, 1024]⟩ : Shape).Idx → EReal)
    (Wio : (⟨2, ![512, 1024]⟩ : Shape).Idx → EReal) (Who : (⟨2, ![1024, 1024]⟩ : Shape).Idx → EReal)
    (p : Fin 8192) (q : Fin 1024) : EReal :=
  hidden (fun d => x (ix2 p d)) (fun d => h (ix2 p d))
    (cellArr x h c wci wcf Wif Whf Wii Whi Wig Whg p q)
    (fun d => Wio (ix2 d q)) (fun d => Who (ix2 d q)) (wco (ix1 q))

end Cert.Peephole

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.BodyValue.lean ====
/-
  The two values the kernel body stores, read at an entry of the block.

  The body multiplies the block of input rows and the block of hidden rows against weight matrices whose four gates'
  columns lie side by side, cuts the two products into the four gates' column ranges, and combines them pointwise.
  Read at row r and unit q, the slice for gate k of either product is the row against column 1024·k + q of the
  weight (slice_pay3_apply, slice_pay4_apply); a [1,1024] row broadcast down the block is the row's entry q
  (row_apply); and with these the new cell value and the new hidden value at (r, q) are the specification's scalar
  functions of the two rows, the previous cell value, the weight columns and the peephole weights (pay5_apply,
  pay1_apply).
-/
import proofs.«155535_j8873402434093_2_alg».proof.Proof.Gen.KernelIdeal.Skeleton
import proofs.«155535_j8873402434093_2_alg».proof.Proof.Spec
import proofs.«155535_j8873402434093_2_alg».proof.Proof.LibMatmulIdx
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- The input-side product at row r, column c: the input row against column c of the fused weight. -/
theorem pay3_apply (v0 : Vec Ideal S256x512 .f32) (v11 : Vec Ideal S512x4096 .bf16) (r : Fin 256) (c : Fin 4096) :
    k0_pay3 (F := Ideal) v0 v11 (ix2 r c) = ∑ d : Fin 512, v0 (ix2 r d) * v11 (ix2 d c) := by
  unfold k0_pay3
  show FloatOps.matmul (DotDims.plain 256 512 4096) none (truncf (F := Ideal) .bf16 v0 bitsLt_bf16_f32)
      (shapeCast S512x4096 v11 shapeCasts_S512x4096_S512x4096) (constant S256x4096 .f32 0x00000000#32) (ix2 r c) = _
  rw [shapeCast_self]
  exact Cert.MatmulIdx.matmul_plain_zero_apply none (truncf (F := Ideal) .bf16 v0 bitsLt_bf16_f32) v11 r c

/-- The hidden-side product at row r, column c: the hidden row against column c of the fused weight. -/
theorem pay4_apply (v2 : Vec Ideal S256x1024 .f32) (v14 : Vec Ideal S1024x4096 .bf16) (r : Fin 256) (c : Fin 4096) :
    k0_pay4 (F := Ideal) v2 v14 (ix2 r c) = ∑ d : Fin 1024, v2 (ix2 r d) * v14 (ix2 d c) := by
  unfold k0_pay4
  show FloatOps.matmul (DotDims.plain 256 1024 4096) none (truncf (F := Ideal) .bf16 v2 bitsLt_bf16_f32)
      (shapeCast S1024x4096 v14 shapeCasts_S1024x4096_S1024x4096) (constant S256x4096 .f32 0x00000000#32) (ix2 r c) = _
  rw [shapeCast_self]
  exact Cert.MatmulIdx.matmul_plain_zero_apply none (truncf (F := Ideal) .bf16 v2 bitsLt_bf16_f32) v14 r c

/-- A slice of 1024 columns starting at column 1024·k, read at (r, q), is the operand at (r, 1024·k + q). -/
theorem slice_apply (k : Fin 4) (x : FVec Ideal S256x4096 .f32) (h : S256x4096.Slices ![0, 1024 * k.val] S256x1024)
    (r : Fin 256) (q : Fin 1024) :
    extractStridedSlice S256x1024 ![0, 1024 * k.val] x h (ix2 r q) = x (ix2 r (Cert.Peephole.gateCol k q)) :=
  extractStridedSlice_apply ![0, 1024 * k.val] x h (ix2 r q) (ix2 r (Cert.Peephole.gateCol k q)) fun a =>
    match a with
    | ⟨0, _⟩ => by show r.val = 0 + r.val; omega
    | ⟨1, _⟩ => by show 1024 * k.val + q.val = 1024 * k.val + q.val; rfl

/-- Gate k's slice of the input-side product at (r, q): the input row against gate k's column q. -/
theorem slice_pay3_apply (k : Fin 4) (v0 : Vec Ideal S256x512 .f32) (v11 : Vec Ideal S512x4096 .bf16)
    (h : S256x4096.Slices ![0, 1024 * k.val] S256x1024) (r : Fin 256) (q : Fin 1024) :
    extractStridedSlice S256x1024 ![0, 1024 * k.val] (k0_pay3 (F := Ideal) v0 v11) h (ix2 r q)
      = ∑ d : Fin 512, v0 (ix2 r d) * v11 (ix2 d (Cert.Peephole.gateCol k q)) :=
  (slice_apply k _ h r q).trans (pay3_apply v0 v11 r _)

/-- Gate k's slice of the hidden-side product at (r, q): the hidden row against gate k's column q. -/
theorem slice_pay4_apply (k : Fin 4) (v2 : Vec Ideal S256x1024 .f32) (v14 : Vec Ideal S1024x4096 .bf16)
    (h : S256x4096.Slices ![0, 1024 * k.val] S256x1024) (r : Fin 256) (q : Fin 1024) :
    extractStridedSlice S256x1024 ![0, 1024 * k.val] (k0_pay4 (F := Ideal) v2 v14) h (ix2 r q)
      = ∑ d : Fin 1024, v2 (ix2 r d) * v14 (ix2 d (Cert.Peephole.gateCol k q)) :=
  (slice_apply k _ h r q).trans (pay4_apply v2 v14 r _)

/-- A [1,1024] row, cast to its own shape and broadcast down the 256 rows of the block, read at (r, q): its entry q. -/
theorem row_apply (v : Vec Ideal S1x1024 .f32) (r : Fin 256) (q : Fin 1024) :
    broadcastTo S256x1024 (shapeCast S1x1024 v shapeCasts_S1x1024_S1x1024) broadcasts_S1x1024_S256x1024 (ix2 r q)
      = v (ix2 0 q) := by
  rw [shapeCast_self]
  exact broadcastTo_apply v broadcasts_S1x1024_S256x1024 (ix2 r q) (ix2 0 q) fun a =>
    match a with
    | ⟨0, _⟩ => rfl
    | ⟨1, _⟩ => rfl

/-- One gate's pre-activation from the two products' slices for gate k. -/
theorem pre_apply (k : Fin 4) (v0 : Vec Ideal S256x512 .f32) (v2 : Vec Ideal S256x1024 .f32)
    (v11 : Vec Ideal S512x4096 .bf16) (v14 : Vec Ideal S1024x4096 .bf16)
    (h : S256x4096.Slices ![0, 1024 * k.val] S256x1024) (r : Fin 256) (q : Fin 1024) :
    extractStridedSlice S256x1024 ![0, 1024 * k.val] (k0_pay3 (F := Ideal) v0 v11) h (ix2 r q)
        + extractStridedSlice S256x1024 ![0, 1024 * k.val] (k0_pay4 (F := Ideal) v2 v14) h (ix2 r q)
      = Cert.Peephole.pre (fun d => v0 (ix2 r d)) (fun d => v2 (ix2 r d))
          (fun d => v11 (ix2 d (Cert.Peephole.gateCol k q))) (fun d => v14 (ix2 d (Cert.Peephole.gateCol k q))) := by
  rw [slice_pay3_apply, slice_pay4_apply]
  rfl

/-- THE NEW CELL VALUE at row r, unit q: the specification's cell of the two rows, the previous cell value, the
    forget, input and candidate gates' weight columns, and the forget and input gates' peephole weights. -/
theorem pay5_apply (v0 : Vec Ideal S256x512 .f32) (v2 v4 : Vec Ideal S256x1024 .f32) (v5 v7 : Vec Ideal S1x1024 .f32)
    (v11 : Vec Ideal S512x4096 .bf16) (v14 : Vec Ideal S1024x4096 .bf16) (r : Fin 256) (q : Fin 1024) :
    k0_pay5 (F := Ideal) v0 v2 v4 v5 v7 v11 v14 (ix2 r q)
      = Cert.Peephole.cell (fun d => v0 (ix2 r d)) (fun d => v2 (ix2 r d)) (v4 (ix2 r q))
          (fun d => v11 (ix2 d (Cert.Peephole.gateCol 0 q))) (fun d => v14 (ix2 d (Cert.Peephole.gateCol 0 q)))
          (fun d => v11 (ix2 d (Cert.Peephole.gateCol 1 q))) (fun d => v14 (ix2 d (Cert.Peephole.gateCol 1 q)))
          (fun d => v11 (ix2 d (Cert.Peephole.gateCol 2 q))) (fun d => v14 (ix2 d (Cert.Peephole.gateCol 2 q)))
          (v7 (ix2 0 q)) (v5 (ix2 0 q)) := by
  have e0 := pre_apply 0 v0 v2 v11 v14 slices_S256x4096_o0_0_S256x1024 r q
  have e1 := pre_apply 1 v0 v2 v11 v14 slices_S256x4096_o0_1024_S256x1024 r q
  have e2 := pre_apply 2 v0 v2 v11 v14 slices_S256x4096_o0_2048_S256x1024 r q
  have b7 := row_apply v7 r q
  have b5 := row_apply v5 r q
  unfold Cert.Peephole.cell
  rw [← e0, ← e1, ← e2, ← b7, ← b5]
  rfl

/-- THE NEW HIDDEN VALUE at row r, unit q: the specification's hidden of the two rows, the new cell value at (r, q),
    the output gate's weight columns and its peephole weight. -/
theorem pay1_apply (v0 : Vec Ideal S256x512 .f32) (v2 v4 : Vec Ideal S256x1024 .f32) (v5 v7 v9 : Vec Ideal S1x1024 .f32)
    (v11 : Vec Ideal S512x4096 .bf16) (v14 : Vec Ideal S1024x4096 .bf16) (r : Fin 256) (q : Fin 1024) :
    k0_pay1 (F := Ideal) (k0_pay2 v9) (k0_pay5 v0 v2 v4 v5 v7 v11 v14) (k0_pay6 v0 v2 v11 v14) (ix2 r q)
      = Cert.Peephole.hidden (fun d => v0 (ix2 r d)) (fun d => v2 (ix2 r d))
          (k0_pay5 (F := Ideal) v0 v2 v4 v5 v7 v11 v14 (ix2 r q))
          (fun d => v11 (ix2 d (Cert.Peephole.gateCol 3 q))) (fun d => v14 (ix2 d (Cert.Peephole.gateCol 3 q))) (v9 (ix2 0 q)) := by
  have e3 := pre_apply 3 v0 v2 v11 v14 slices_S256x4096_o0_3072_S256x1024 r q
  have b9 := row_apply v9 r q
  unfold Cert.Peephole.hidden
  rw [← e3, ← b9]
  rfl

end Cert.KernelIdeal.BodyValue

end
-- ==== Proof.HostReads.lean ====
/-
  What the buffers written by the host operations before the region hold, read at an index, on the extended reals:
  a peephole vector reshaped to one row is the vector, and a weight matrix made of four gates' matrices laid side by
  side along the columns and rounded to bf16 (the identity on the extended reals) holds gate k's matrix in columns
  1024·k … 1024·k + 1023.
-/
import proofs.«155535_j8873402434093_2_alg».proof.Proof.EntryIdeal
import proofs.«155535_j8873402434093_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostReads

open Cert.KernelIdeal Cert.KernelIdeal.Gen Cert.KernelIdeal.Fr
open Idealize.ShloMosaic Idealize.ShloMosaic.TcCoe Idealize.ShloMosaic.ValueIdx

/-! ## Four matrices of 1024 columns laid side by side, read at a column of gate k -/

section Concat

variable {n : Nat} (x0 x1 x2 x3 : (⟨2, ![n, 1024]⟩ : Shape).Idx → EReal)
  (h : Shape.Concatenates [(⟨2, ![n, 1024]⟩ : Shape), ⟨2, ![n, 1024]⟩, ⟨2, ![n, 1024]⟩, ⟨2, ![n, 1024]⟩] ⟨2, ![n, 4096]⟩ 1)
  (d : Fin n) (q : Fin 1024)

/- Column 1024·k + q of the concatenation lies in piece k, the pieces before it spanning 1024·k columns, and is
   that piece's column q; the row is untouched. -/

theorem concat4_apply0 :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 d (Cert.Peephole.gateCol 0 q)) = x0 (ix2 d q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h _ 0 (by show 0 < 4; omega) ⟨2, ![n, 1024]⟩ x0 rfl rfl (1024 * 0) rfl (ix2 d q)
    (fun b hb => match b with | ⟨0, _⟩ => rfl | ⟨1, _⟩ => absurd rfl hb) (by rfl)

theorem concat4_apply1 :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 d (Cert.Peephole.gateCol 1 q)) = x1 (ix2 d q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h _ 1 (by show 1 < 4; omega) ⟨2, ![n, 1024]⟩ x1 rfl rfl (1024 * 1) rfl (ix2 d q)
    (fun b hb => match b with | ⟨0, _⟩ => rfl | ⟨1, _⟩ => absurd rfl hb) (by rfl)

theorem concat4_apply2 :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 d (Cert.Peephole.gateCol 2 q)) = x2 (ix2 d q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h _ 2 (by show 2 < 4; omega) ⟨2, ![n, 1024]⟩ x2 rfl rfl (1024 * 2) rfl (ix2 d q)
    (fun b hb => match b with | ⟨0, _⟩ => rfl | ⟨1, _⟩ => absurd rfl hb) (by rfl)

theorem concat4_apply3 :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 d (Cert.Peephole.gateCol 3 q)) = x3 (ix2 d q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h _ 3 (by show 3 < 4; omega) ⟨2, ![n, 1024]⟩ x3 rfl rfl (1024 * 3) rfl (ix2 d q)
    (fun b hb => match b with | ⟨0, _⟩ => rfl | ⟨1, _⟩ => absurd rfl hb) (by rfl)

end Concat

variable (m : (ℓ : Loc nD τ sig) → Buf (Elt Ideal) ℓ) (c : Dev nD)

/-! ## The buffers' contents as the operations' terms over the launch memory -/

/-- The one-row matrix is the reshape of the launched vector. -/
theorem V_v0_eq : (V m c main_v0 : S1x1024.Idx → EReal)
    = shapeCast S1x1024 (m ((c : Thread nD τ).loc main_arg3) : S1024.Idx → EReal) shapeCasts_S1024_S1x1024 := by
  dsimp only [V]
  simp only [hostOps0, List.flatten_cons, List.flatten_nil, List.append_nil]
  after_results
  rfl

/-- The one-row matrix is the reshape of the launched vector. -/
theorem V_v1_eq : (V m c main_v1 : S1x1024.Idx → EReal)
    = shapeCast S1x1024 (m ((c : Thread nD τ).loc main_arg4) : S1024.Idx → EReal) shapeCasts_S1024_S1x1024 := by
  dsimp only [V]
  simp only [hostOps0, List.flatten_cons, List.flatten_nil, List.append_nil]
  after_results
  rfl

/-- The one-row matrix is the reshape of the launched vector. -/
theorem V_v2_eq : (V m c main_v2 : S1x1024.Idx → EReal)
    = shapeCast S1x1024 (m ((c : Thread nD τ).loc main_arg5) : S1024.Idx → EReal) shapeCasts_S1024_S1x1024 := by
  dsimp only [V]
  simp only [hostOps0, List.flatten_cons, List.flatten_nil, List.append_nil]
  after_results
  rfl

/-- The fused weight matrix is the launched gate matrices side by side, rounded to bf16. -/
theorem V_v4_eq : @Eq (FVec Ideal S512x4096 .bf16) (V m c main_v4)
    (truncf (F := Ideal) .bf16 (concatenate S512x4096 1 [⟨S512x1024, (m ((c : Thread nD τ).loc main_arg6) : S512x1024.Idx → EReal)⟩, ⟨S512x1024, (m ((c : Thread nD τ).loc main_arg8) : S512x1024.Idx → EReal)⟩, ⟨S512x1024, (m ((c : Thread nD τ).loc main_arg10) : S512x1024.Idx → EReal)⟩, ⟨S512x1024, (m ((c : Thread nD τ).loc main_arg12) : S512x1024.Idx → EReal)⟩] concatenates_S512x1024_S512x1024_S512x1024_S512x1024_S512x4096_d1) bitsLt_bf16_f32) := by
  dsimp only [V]
  simp only [hostOps0, List.flatten_cons, List.flatten_nil, List.append_nil]
  after_results
  rfl

/-- The fused weight matrix is the launched gate matrices side by side, rounded to bf16. -/
theorem V_v6_eq : @Eq (FVec Ideal S1024x4096 .bf16) (V m c main_v6)
    (truncf (F := Ideal) .bf16 (concatenate S1024x4096 1 [⟨S1024x1024, (m ((c : Thread nD τ).loc main_arg7) : S1024x1024.Idx → EReal)⟩, ⟨S1024x1024, (m ((c : Thread nD τ).loc main_arg9) : S1024x1024.Idx → EReal)⟩, ⟨S1024x1024, (m ((c : Thread nD τ).loc main_arg11) : S1024x1024.Idx → EReal)⟩, ⟨S1024x1024, (m ((c : Thread nD τ).loc main_arg13) : S1024x1024.Idx → EReal)⟩] concatenates_S1024x1024_S1024x1024_S1024x1024_S1024x1024_S1024x4096_d1) bitsLt_bf16_f32) := by
  dsimp only [V]
  simp only [hostOps0, List.flatten_cons, List.flatten_nil, List.append_nil]
  after_results
  rfl

/-! ## Read at an index -/

theorem V_v0_apply (q : Fin 1024) :
    V m c main_v0 (ix2 (0 : Fin 1) q) = m ((c : Thread nD τ).loc main_arg3) (ix1 q) :=
  (congrFun (V_v0_eq m c) _).trans (shapeCast_a_1a_apply _ _ 0 q)

theorem V_v1_apply (q : Fin 1024) :
    V m c main_v1 (ix2 (0 : Fin 1) q) = m ((c : Thread nD τ).loc main_arg4) (ix1 q) :=
  (congrFun (V_v1_eq m c) _).trans (shapeCast_a_1a_apply _ _ 0 q)

theorem V_v2_apply (q : Fin 1024) :
    V m c main_v2 (ix2 (0 : Fin 1) q) = m ((c : Thread nD τ).loc main_arg5) (ix1 q) :=
  (congrFun (V_v2_eq m c) _).trans (shapeCast_a_1a_apply _ _ 0 q)

theorem V_v4_apply0 (d : Fin 512) (q : Fin 1024) :
    V m c main_v4 (ix2 d (Cert.Peephole.gateCol 0 q)) = m ((c : Thread nD τ).loc main_arg6) (ix2 d q) := by
  refine (congrFun (V_v4_eq m c) _).trans ?_
  generalize (m ((c : Thread nD τ).loc main_arg6) : S512x1024.Idx → EReal) = x0
  generalize (m ((c : Thread nD τ).loc main_arg8) : S512x1024.Idx → EReal) = x1
  generalize (m ((c : Thread nD τ).loc main_arg10) : S512x1024.Idx → EReal) = x2
  generalize (m ((c : Thread nD τ).loc main_arg12) : S512x1024.Idx → EReal) = x3
  exact concat4_apply0 x0 x1 x2 x3 concatenates_S512x1024_S512x1024_S512x1024_S512x1024_S512x4096_d1 d q

theorem V_v4_apply1 (d : Fin 512) (q : Fin 1024) :
    V m c main_v4 (ix2 d (Cert.Peephole.gateCol 1 q)) = m ((c : Thread nD τ).loc main_arg8) (ix2 d q) := by
  refine (congrFun (V_v4_eq m c) _).trans ?_
  generalize (m ((c : Thread nD τ).loc main_arg6) : S512x1024.Idx → EReal) = x0
  generalize (m ((c : Thread nD τ).loc main_arg8) : S512x1024.Idx → EReal) = x1
  generalize (m ((c : Thread nD τ).loc main_arg10) : S512x1024.Idx → EReal) = x2
  generalize (m ((c : Thread nD τ).loc main_arg12) : S512x1024.Idx → EReal) = x3
  exact concat4_apply1 x0 x1 x2 x3 concatenates_S512x1024_S512x1024_S512x1024_S512x1024_S512x4096_d1 d q

theorem V_v4_apply2 (d : Fin 512) (q : Fin 1024) :
    V m c main_v4 (ix2 d (Cert.Peephole.gateCol 2 q)) = m ((c : Thread nD τ).loc main_arg10) (ix2 d q) := by
  refine (congrFun (V_v4_eq m c) _).trans ?_
  generalize (m ((c : Thread nD τ).loc main_arg6) : S512x1024.Idx → EReal) = x0
  generalize (m ((c : Thread nD τ).loc main_arg8) : S512x1024.Idx → EReal) = x1
  generalize (m ((c : Thread nD τ).loc main_arg10) : S512x1024.Idx → EReal) = x2
  generalize (m ((c : Thread nD τ).loc main_arg12) : S512x1024.Idx → EReal) = x3
  exact concat4_apply2 x0 x1 x2 x3 concatenates_S512x1024_S512x1024_S512x1024_S512x1024_S512x4096_d1 d q

theorem V_v4_apply3 (d : Fin 512) (q : Fin 1024) :
    V m c main_v4 (ix2 d (Cert.Peephole.gateCol 3 q)) = m ((c : Thread nD τ).loc main_arg12) (ix2 d q) := by
  refine (congrFun (V_v4_eq m c) _).trans ?_
  generalize (m ((c : Thread nD τ).loc main_arg6) : S512x1024.Idx → EReal) = x0
  generalize (m ((c : Thread nD τ).loc main_arg8) : S512x1024.Idx → EReal) = x1
  generalize (m ((c : Thread nD τ).loc main_arg10) : S512x1024.Idx → EReal) = x2
  generalize (m ((c : Thread nD τ).loc main_arg12) : S512x1024.Idx → EReal) = x3
  exact concat4_apply3 x0 x1 x2 x3 concatenates_S512x1024_S512x1024_S512x1024_S512x1024_S512x4096_d1 d q

theorem V_v6_apply0 (d : Fin 1024) (q : Fin 1024) :
    V m c main_v6 (ix2 d (Cert.Peephole.gateCol 0 q)) = m ((c : Thread nD τ).loc main_arg7) (ix2 d q) := by
  refine (congrFun (V_v6_eq m c) _).trans ?_
  generalize (m ((c : Thread nD τ).loc main_arg7) : S1024x1024.Idx → EReal) = x0
  generalize (m ((c : Thread nD τ).loc main_arg9) : S1024x1024.Idx → EReal) = x1
  generalize (m ((c : Thread nD τ).loc main_arg11) : S1024x1024.Idx → EReal) = x2
  generalize (m ((c : Thread nD τ).loc main_arg13) : S1024x1024.Idx → EReal) = x3
  exact concat4_apply0 x0 x1 x2 x3 concatenates_S1024x1024_S1024x1024_S1024x1024_S1024x1024_S1024x4096_d1 d q

theorem V_v6_apply1 (d : Fin 1024) (q : Fin 1024) :
    V m c main_v6 (ix2 d (Cert.Peephole.gateCol 1 q)) = m ((c : Thread nD τ).loc main_arg9) (ix2 d q) := by
  refine (congrFun (V_v6_eq m c) _).trans ?_
  generalize (m ((c : Thread nD τ).loc main_arg7) : S1024x1024.Idx → EReal) = x0
  generalize (m ((c : Thread nD τ).loc main_arg9) : S1024x1024.Idx → EReal) = x1
  generalize (m ((c : Thread nD τ).loc main_arg11) : S1024x1024.Idx → EReal) = x2
  generalize (m ((c : Thread nD τ).loc main_arg13) : S1024x1024.Idx → EReal) = x3
  exact concat4_apply1 x0 x1 x2 x3 concatenates_S1024x1024_S1024x1024_S1024x1024_S1024x1024_S1024x4096_d1 d q

theorem V_v6_apply2 (d : Fin 1024) (q : Fin 1024) :
    V m c main_v6 (ix2 d (Cert.Peephole.gateCol 2 q)) = m ((c : Thread nD τ).loc main_arg11) (ix2 d q) := by
  refine (congrFun (V_v6_eq m c) _).trans ?_
  generalize (m ((c : Thread nD τ).loc main_arg7) : S1024x1024.Idx → EReal) = x0
  generalize (m ((c : Thread nD τ).loc main_arg9) : S1024x1024.Idx → EReal) = x1
  generalize (m ((c : Thread nD τ).loc main_arg11) : S1024x1024.Idx → EReal) = x2
  generalize (m ((c : Thread nD τ).loc main_arg13) : S1024x1024.Idx → EReal) = x3
  exact concat4_apply2 x0 x1 x2 x3 concatenates_S1024x1024_S1024x1024_S1024x1024_S1024x1024_S1024x4096_d1 d q

theorem V_v6_apply3 (d : Fin 1024) (q : Fin 1024) :
    V m c main_v6 (ix2 d (Cert.Peephole.gateCol 3 q)) = m ((c : Thread nD τ).loc main_arg13) (ix2 d q) := by
  refine (congrFun (V_v6_eq m c) _).trans ?_
  generalize (m ((c : Thread nD τ).loc main_arg7) : S1024x1024.Idx → EReal) = x0
  generalize (m ((c : Thread nD τ).loc main_arg9) : S1024x1024.Idx → EReal) = x1
  generalize (m ((c : Thread nD τ).loc main_arg11) : S1024x1024.Idx → EReal) = x2
  generalize (m ((c : Thread nD τ).loc main_arg13) : S1024x1024.Idx → EReal) = x3
  exact concat4_apply3 x0 x1 x2 x3 concatenates_S1024x1024_S1024x1024_S1024x1024_S1024x1024_S1024x4096_d1 d q

end Cert.KernelIdeal.HostReads

end
-- ==== Proof.ArrayIdeal.lean ====
/-
  From blocks to arrays: what the two result arrays hold after the run, as functions of the argument arrays.

  Grid point `t` reads rows `256·t … 256·t + 255` of the input, the hidden state and the cell state, the three
  peephole rows and the two fused weight matrices whole, and writes back rows `256·t …` of both results. An entry
  `(r, d)` of a batch block is entry `(256·t + r, d)` of its array; the peephole row's entry `q` is the peephole
  vector's entry `q`; column `1024·k + q` of a fused weight matrix is column `q` of gate `k`'s own matrix (the host
  laid the four side by side and rounded to bf16, the identity on the extended reals). So what point `t` writes back
  is block `t` of the specification's arrays of the ARGUMENTS, the 32 blocks tile the 8192 rows, and each result
  array ends holding the specification's array.
-/
import proofs.«155535_j8873402434093_2_alg».proof.Proof.FrameIdeal
import proofs.«155535_j8873402434093_2_alg».proof.Proof.BodyValue
import proofs.«155535_j8873402434093_2_alg».proof.Proof.HostReads
import proofs.«155535_j8873402434093_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The two result arrays, as functions of the argument arrays -/

/-- The new cell state of the whole batch, from the launch contents of the arguments. -/
def cellOut (c : Dev nD) : S8192x1024.Idx → EReal := fun j =>
  Cert.Peephole.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨(j 0).val, idx2_lt0 j⟩ ⟨(j 1).val, idx2_lt1 j⟩

/-- The new hidden state of the whole batch, from the launch contents of the arguments. -/
def hiddenOut (c : Dev nD) : S8192x1024.Idx → EReal := fun j =>
  Cert.Peephole.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) ⟨(j 0).val, idx2_lt0 j⟩ ⟨(j 1).val, idx2_lt1 j⟩

/-! ## The index maps, decided over the 32 grid points -/

/-- The batch windows (0, 1, 2 in, 8, 9 out) move one block of rows per point; the five others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- A point's number is below 32. -/
theorem t_lt (t : Fin cfg0.N) : t.val < 32 := by have h := t.isLt; have e : cfg0.N = 32 := N_0; omega

/-- Row `r` of the block at point `t` is row `256·t + r` of the batch. -/
def rowAt (t : Fin cfg0.N) (r : Fin 256) : Fin 8192 := ⟨256 * t.val + r.val, by have := t_lt t; have := r.isLt; omega⟩

/-! ## Each input block, read at an entry, as the argument array's entry -/

theorem blk0_apply (c : Dev nD) (t : Fin cfg0.N) (r : Fin 256) (d : Fin 512) :
    iblk m c 0 t (ix2 r d) = m ((c : Thread nD τ).loc main_arg0) (ix2 (rowAt t r) d) := by
  show V m c main_arg0 (((cfg0.win 0).blk t).view.emb (ix2 r d)) = _
  rw [V_main_arg0]
  refine congrArg (m ((c : Thread nD τ).loc main_arg0)) ?_
  obtain ⟨e00, e01, e10, e11, e20, e21, -⟩ := idx_facts t
  funext a; apply Fin.ext
  match a with
  | ⟨0, _⟩ => show win0_0.index t (0 : Fin 2) * 256 + 1 * r.val = 256 * t.val + r.val; omega
  | ⟨1, _⟩ => show win0_0.index t (1 : Fin 2) * 512 + 1 * d.val = d.val; omega

theorem blk1_apply (c : Dev nD) (t : Fin cfg0.N) (r : Fin 256) (d : Fin 1024) :
    iblk m c 1 t (ix2 r d) = m ((c : Thread nD τ).loc main_arg1) (ix2 (rowAt t r) d) := by
  show V m c main_arg1 (((cfg0.win 1).blk t).view.emb (ix2 r d)) = _
  rw [V_main_arg1]
  refine congrArg (m ((c : Thread nD τ).loc main_arg1)) ?_
  obtain ⟨e00, e01, e10, e11, e20, e21, -⟩ := idx_facts t
  funext a; apply Fin.ext
  match a with
  | ⟨0, _⟩ => show win0_1.index t (0 : Fin 2) * 256 + 1 * r.val = 256 * t.val + r.val; omega
  | ⟨1, _⟩ => show win0_1.index t (1 : Fin 2) * 1024 + 1 * d.val = d.val; omega

theorem blk2_apply (c : Dev nD) (t : Fin cfg0.N) (r : Fin 256) (d : Fin 1024) :
    iblk m c 2 t (ix2 r d) = m ((c : Thread nD τ).loc main_arg2) (ix2 (rowAt t r) d) := by
  show V m c main_arg2 (((cfg0.win 2).blk t).view.emb (ix2 r d)) = _
  rw [V_main_arg2]
  refine congrArg (m ((c : Thread nD τ).loc main_arg2)) ?_
  obtain ⟨e00, e01, e10, e11, e20, e21, -⟩ := idx_facts t
  funext a; apply Fin.ext
  match a with
  | ⟨0, _⟩ => show win0_2.index t (0 : Fin 2) * 256 + 1 * r.val = 256 * t.val + r.val; omega
  | ⟨1, _⟩ => show win0_2.index t (1 : Fin 2) * 1024 + 1 * d.val = d.val; omega

theorem blk3_apply (c : Dev nD) (t : Fin cfg0.N) (q : Fin 1024) :
    iblk m c 3 t (ix2 (0 : Fin 1) q) = m ((c : Thread nD τ).loc main_arg3) (ix1 q) := by
  show V m c main_v0 (((cfg0.win 3).blk t).view.emb (ix2 (0 : Fin 1) q)) = _
  have he : ((cfg0.win 3).blk t).view.emb (ix2 (0 : Fin 1) q) = ix2 (0 : Fin 1) q := by
    obtain ⟨-, -, -, -, -, -, e30, e31, e40, e41, e50, e51, -⟩ := idx_facts t
    funext a; apply Fin.ext
    match a with
    | ⟨0, _⟩ => show win0_3.index t (0 : Fin 2) * 1 + 1 * 0 = 0; omega
    | ⟨1, _⟩ => show win0_3.index t (1 : Fin 2) * 1024 + 1 * q.val = q.val; omega
  rw [he]
  exact HostReads.V_v0_apply m c q

theorem blk4_apply (c : Dev nD) (t : Fin cfg0.N) (q : Fin 1024) :
    iblk m c 4 t (ix2 (0 : Fin 1) q) = m ((c : Thread nD τ).loc main_arg4) (ix1 q) := by
  show V m c main_v1 (((cfg0.win 4).blk t).view.emb (ix2 (0 : Fin 1) q)) = _
  have he : ((cfg0.win 4).blk t).view.emb (ix2 (0 : Fin 1) q) = ix2 (0 : Fin 1) q := by
    obtain ⟨-, -, -, -, -, -, e30, e31, e40, e41, e50, e51, -⟩ := idx_facts t
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [he]
  exact HostReads.V_v1_apply m c q

theorem blk5_apply (c : Dev nD) (t : Fin cfg0.N) (q : Fin 1024) :
    iblk m c 5 t (ix2 (0 : Fin 1) q) = m ((c : Thread nD τ).loc main_arg5) (ix1 q) := by
  show V m c main_v2 (((cfg0.win 5).blk t).view.emb (ix2 (0 : Fin 1) q)) = _
  have he : ((cfg0.win 5).blk t).view.emb (ix2 (0 : Fin 1) q) = ix2 (0 : Fin 1) q := by
    obtain ⟨-, -, -, -, -, -, e30, e31, e40, e41, e50, e51, -⟩ := idx_facts t
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [he]
  exact HostReads.V_v2_apply m c q

theorem blk6_apply0 (c : Dev nD) (t : Fin cfg0.N) (d : Fin 512) (q : Fin 1024) :
    iblk m c 6 t (ix2 d (Cert.Peephole.gateCol 0 q)) = m ((c : Thread nD τ).loc main_arg6) (ix2 d q) := by
  show V m c main_v4 (((cfg0.win 6).blk t).view.emb (ix2 d (Cert.Peephole.gateCol 0 q))) = _
  have he : ((cfg0.win 6).blk t).view.emb (ix2 d (Cert.Peephole.gateCol 0 q)) = ix2 d (Cert.Peephole.gateCol 0 q) := by
    obtain ⟨-, -, -, -, -, -, -, -, -, -, -, -, e60, e61, e70, e71, -⟩ := idx_facts t
    funext a; apply Fin.ext
    match a with
    | ⟨0, _⟩ => show win0_6.index t (0 : Fin 2) * 512 + 1 * d.val = d.val; omega
    | ⟨1, _⟩ => show win0_6.index t (1 : Fin 2) * 4096 + 1 * (Cert.Peephole.gateCol 0 q).val = (Cert.Peephole.gateCol 0 q).val; omega
  rw [he]
  exact HostReads.V_v4_apply0 m c d q

theorem blk7_apply0 (c : Dev nD) (t : Fin cfg0.N) (d : Fin 1024) (q : Fin 1024) :
    iblk m c 7 t (ix2 d (Cert.Peephole.gateCol 0 q)) = m ((c : Thread nD τ).loc main_arg7) (ix2 d q) := by
  show V m c main_v6 (((cfg0.win 7).blk t).view.emb (ix2 d (Cert.Peephole.gateCol 0 q))) = _
  have he : ((cfg0.win 7).blk t).view.emb (ix2 d (Cert.Peephole.gateCol 0 q)) = ix2 d (Cert.Peephole.gateCol 0 q) := by
    obtain ⟨-, -, -, -, -, -, -, -, -, -, -, -, e60, e61, e70, e71, -⟩ := idx_facts t
    funext a; apply Fin.ext
    match a with
    | ⟨0, _⟩ => show win0_7.index t (0 : Fin 2) * 1024 + 1 * d.val = d.val; omega
    | ⟨1, _⟩ => show win0_7.index t (1 : Fin 2) * 4096 + 1 * (Cert.Peephole.gateCol 0 q).val = (Cert.Peephole.gateCol 0 q).val; omega
  rw [he]
  exact HostReads.V_v6_apply0 m c d q

theorem blk6_apply1 (c : Dev nD) (t : Fin cfg0.N) (d : Fin 512) (q : Fin 1024) :
    iblk m c 6 t (ix2 d (Cert.Peephole.gateCol 1 q)) = m ((c : Thread nD τ).loc main_arg8) (ix2 d q) := by
  show V m c main_v4 (((cfg0.win 6).blk t).view.emb (ix2 d (Cert.Peephole.gateCol 1 q))) = _
  have he : ((cfg0.win 6).blk t).view.emb (ix2 d (Cert.Peephole.gateCol 1 q)) = ix2 d (Cert.Peephole.gateCol 1 q) := by
    obtain ⟨-, -, -, -, -, -, -, -, -, -, -, -, e60, e61, e70, e71, -⟩ := idx_facts t
    funext a; apply Fin.ext
    match a with
    | ⟨0, _⟩ => show win0_6.index t (0 : Fin 2) * 512 + 1 * d.val = d.val; omega
    | ⟨1, _⟩ => show win0_6.index t (1 : Fin 2) * 4096 + 1 * (Cert.Peephole.gateCol 1 q).val = (Cert.Peephole.gateCol 1 q).val; omega
  rw [he]
  exact HostReads.V_v4_apply1 m c d q

theorem blk7_apply1 (c : Dev nD) (t : Fin cfg0.N) (d : Fin 1024) (q : Fin 1024) :
    iblk m c 7 t (ix2 d (Cert.Peephole.gateCol 1 q)) = m ((c : Thread nD τ).loc main_arg9) (ix2 d q) := by
  show V m c main_v6 (((cfg0.win 7).blk t).view.emb (ix2 d (Cert.Peephole.gateCol 1 q))) = _
  have he : ((cfg0.win 7).blk t).view.emb (ix2 d (Cert.Peephole.gateCol 1 q)) = ix2 d (Cert.Peephole.gateCol 1 q) := by
    obtain ⟨-, -, -, -, -, -, -, -, -, -, -, -, e60, e61, e70, e71, -⟩ := idx_facts t
    funext a; apply Fin.ext
    match a with
    | ⟨0, _⟩ => show win0_7.index t (0 : Fin 2) * 1024 + 1 * d.val = d.val; omega
    | ⟨1, _⟩ => show win0_7.index t (1 : Fin 2) * 4096 + 1 * (Cert.Peephole.gateCol 1 q).val = (Cert.Peephole.gateCol 1 q).val; omega
  rw [he]
  exact HostReads.V_v6_apply1 m c d q

theorem blk6_apply2 (c : Dev nD) (t : Fin cfg0.N) (d : Fin 512) (q : Fin 1024) :
    iblk m c 6 t (ix2 d (Cert.Peephole.gateCol 2 q)) = m ((c : Thread nD τ).loc main_arg10) (ix2 d q) := by
  show V m c main_v4 (((cfg0.win 6).blk t).view.emb (ix2 d (Cert.Peephole.gateCol 2 q))) = _
  have he : ((cfg0.win 6).blk t).view.emb (ix2 d (Cert.Peephole.gateCol 2 q)) = ix2 d (Cert.Peephole.gateCol 2 q) := by
    obtain ⟨-, -, -, -, -, -, -, -, -, -, -, -, e60, e61, e70, e71, -⟩ := idx_facts t
    funext a; apply Fin.ext
    match a with
    | ⟨0, _⟩ => show win0_6.index t (0 : Fin 2) * 512 + 1 * d.val = d.val; omega
    | ⟨1, _⟩ => show win0_6.index t (1 : Fin 2) * 4096 + 1 * (Cert.Peephole.gateCol 2 q).val = (Cert.Peephole.gateCol 2 q).val; omega
  rw [he]
  exact HostReads.V_v4_apply2 m c d q

theorem blk7_apply2 (c : Dev nD) (t : Fin cfg0.N) (d : Fin 1024) (q : Fin 1024) :
    iblk m c 7 t (ix2 d (Cert.Peephole.gateCol 2 q)) = m ((c : Thread nD τ).loc main_arg11) (ix2 d q) := by
  show V m c main_v6 (((cfg0.win 7).blk t).view.emb (ix2 d (Cert.Peephole.gateCol 2 q))) = _
  have he : ((cfg0.win 7).blk t).view.emb (ix2 d (Cert.Peephole.gateCol 2 q)) = ix2 d (Cert.Peephole.gateCol 2 q) := by
    obtain ⟨-, -, -, -, -, -, -, -, -, -, -, -, e60, e61, e70, e71, -⟩ := idx_facts t
    funext a; apply Fin.ext
    match a with
    | ⟨0, _⟩ => show win0_7.index t (0 : Fin 2) * 1024 + 1 * d.val = d.val; omega
    | ⟨1, _⟩ => show win0_7.index t (1 : Fin 2) * 4096 + 1 * (Cert.Peephole.gateCol 2 q).val = (Cert.Peephole.gateCol 2 q).val; omega
  rw [he]
  exact HostReads.V_v6_apply2 m c d q

theorem blk6_apply3 (c : Dev nD) (t : Fin cfg0.N) (d : Fin 512) (q : Fin 1024) :
    iblk m c 6 t (ix2 d (Cert.Peephole.gateCol 3 q)) = m ((c : Thread nD τ).loc main_arg12) (ix2 d q) := by
  show V m c main_v4 (((cfg0.win 6).blk t).view.emb (ix2 d (Cert.Peephole.gateCol 3 q))) = _
  have he : ((cfg0.win 6).blk t).view.emb (ix2 d (Cert.Peephole.gateCol 3 q)) = ix2 d (Cert.Peephole.gateCol 3 q) := by
    obtain ⟨-, -, -, -, -, -, -, -, -, -, -, -, e60, e61, e70, e71, -⟩ := idx_facts t
    funext a; apply Fin.ext
    match a with
    | ⟨0, _⟩ => show win0_6.index t (0 : Fin 2) * 512 + 1 * d.val = d.val; omega
    | ⟨1, _⟩ => show win0_6.index t (1 : Fin 2) * 4096 + 1 * (Cert.Peephole.gateCol 3 q).val = (Cert.Peephole.gateCol 3 q).val; omega
  rw [he]
  exact HostReads.V_v4_apply3 m c d q

theorem blk7_apply3 (c : Dev nD) (t : Fin cfg0.N) (d : Fin 1024) (q : Fin 1024) :
    iblk m c 7 t (ix2 d (Cert.Peephole.gateCol 3 q)) = m ((c : Thread nD τ).loc main_arg13) (ix2 d q) := by
  show V m c main_v6 (((cfg0.win 7).blk t).view.emb (ix2 d (Cert.Peephole.gateCol 3 q))) = _
  have he : ((cfg0.win 7).blk t).view.emb (ix2 d (Cert.Peephole.gateCol 3 q)) = ix2 d (Cert.Peephole.gateCol 3 q) := by
    obtain ⟨-, -, -, -, -, -, -, -, -, -, -, -, e60, e61, e70, e71, -⟩ := idx_facts t
    funext a; apply Fin.ext
    match a with
    | ⟨0, _⟩ => show win0_7.index t (0 : Fin 2) * 1024 + 1 * d.val = d.val; omega
    | ⟨1, _⟩ => show win0_7.index t (1 : Fin 2) * 4096 + 1 * (Cert.Peephole.gateCol 3 q).val = (Cert.Peephole.gateCol 3 q).val; omega
  rw [he]
  exact HostReads.V_v6_apply3 m c d q

/-! ## What the body computes at a point, entry by entry -/

theorem hz : (![0, 0] : Fin 2 → Nat) = fun _ => 0 := funext fun a => by fin_cases a <;> rfl

/-- The new cell value the body computes at point `t`, entry `(r, q)` of the block, is the specification's array at
    row `256·t + r`, unit `q`. -/
theorem cell_at (c : Dev nD) (t : Fin cfg0.N) (r : Fin 256) (q : Fin 1024) :
    k0_pay5 (F := Ideal) (iblk m c 0 t) (iblk m c 1 t) (iblk m c 2 t) (iblk m c 3 t) (iblk m c 4 t) (iblk m c 6 t) (iblk m c 7 t) (ix2 r q)
      = Cert.Peephole.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (rowAt t r) q := by
  refine (BodyValue.pay5_apply (iblk m c 0 t) (iblk m c 1 t) (iblk m c 2 t) (iblk m c 3 t) (iblk m c 4 t) (iblk m c 6 t) (iblk m c 7 t) r q).trans ?_
  unfold Cert.Peephole.cellArr
  simp only [blk0_apply, blk1_apply, blk2_apply, blk3_apply, blk4_apply,
    blk6_apply0, blk6_apply1, blk6_apply2, blk7_apply0, blk7_apply1, blk7_apply2]

/-- The new hidden value the body computes at point `t`, entry `(r, q)`, likewise. -/
theorem hidden_at (c : Dev nD) (t : Fin cfg0.N) (r : Fin 256) (q : Fin 1024) :
    k0_pay1 (F := Ideal) (k0_pay2 (iblk m c 5 t))
        (k0_pay5 (iblk m c 0 t) (iblk m c 1 t) (iblk m c 2 t) (iblk m c 3 t) (iblk m c 4 t) (iblk m c 6 t) (iblk m c 7 t))
        (k0_pay6 (iblk m c 0 t) (iblk m c 1 t) (iblk m c 6 t) (iblk m c 7 t)) (ix2 r q)
      = Cert.Peephole.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowAt t r) q := by
  refine (BodyValue.pay1_apply (iblk m c 0 t) (iblk m c 1 t) (iblk m c 2 t) (iblk m c 3 t) (iblk m c 4 t) (iblk m c 5 t) (iblk m c 6 t) (iblk m c 7 t) r q).trans ?_
  unfold Cert.Peephole.hiddenArr
  rw [cell_at]
  simp only [blk0_apply, blk1_apply, blk5_apply, blk6_apply3, blk7_apply3]

/-! ## What a point writes back is its block of the result arrays -/

theorem emb8 (t : Fin cfg0.N) (r : Fin 256) (q : Fin 1024) :
    ((cfg0.win 8).blk t).view.emb (ix2 r q) = ix2 (rowAt t r) q := by
  obtain ⟨-, -, -, -, -, -, -, -, -, -, -, -, -, -, -, -, e80, e81, e90, e91⟩ := idx_facts t
  funext a; apply Fin.ext
  match a with
  | ⟨0, _⟩ => show win0_8.index t (0 : Fin 2) * 256 + 1 * r.val = 256 * t.val + r.val; omega
  | ⟨1, _⟩ => show win0_8.index t (1 : Fin 2) * 1024 + 1 * q.val = q.val; omega

theorem emb9 (t : Fin cfg0.N) (r : Fin 256) (q : Fin 1024) :
    ((cfg0.win 9).blk t).view.emb (ix2 r q) = ix2 (rowAt t r) q := by
  obtain ⟨-, -, -, -, -, -, -, -, -, -, -, -, -, -, -, -, e80, e81, e90, e91⟩ := idx_facts t
  funext a; apply Fin.ext
  match a with
  | ⟨0, _⟩ => show win0_9.index t (0 : Fin 2) * 256 + 1 * r.val = 256 * t.val + r.val; omega
  | ⟨1, _⟩ => show win0_9.index t (1 : Fin 2) * 1024 + 1 * q.val = q.val; omega

/-- Point `t` writes back block `t` of the new hidden state. -/
theorem flushed8_eq (c : Dev nD) (t : Fin cfg0.N) :
    (dats m 0 c).flushed 8 t = ((cfg0.win 8).blk t).view.read (Elt Ideal) (hiddenOut m c) := by
  show (cfg0.win 8).cut (grid0.coords t) ((dats m 0 c).after 8 t) = _
  rw [after0_8]
  unfold out0_8
  rw [View.canon_unit_zero hz]
  simp only [View.ld_unit_zero (S := S256x512) hz, View.ld_unit_zero (S := S256x1024) hz, View.ld_unit_zero (S := S1x1024) hz,
    View.ld_unit_zero (S := S512x4096) hz, View.ld_unit_zero (S := S1024x4096) hz]
  funext j
  obtain ⟨r, q, rfl⟩ : ∃ (r : Fin 256) (q : Fin 1024), j = ix2 r q := ⟨j 0, j 1, eq_ix2 j⟩
  refine (hidden_at m c t r q).trans ?_
  show _ = hiddenOut m c (((cfg0.win 8).blk t).view.emb (ix2 r q))
  rw [emb8]
  rfl

/-- Point `t` writes back block `t` of the new cell state. -/
theorem flushed9_eq (c : Dev nD) (t : Fin cfg0.N) :
    (dats m 0 c).flushed 9 t = ((cfg0.win 9).blk t).view.read (Elt Ideal) (cellOut m c) := by
  show (cfg0.win 9).cut (grid0.coords t) ((dats m 0 c).after 9 t) = _
  rw [after0_9]
  unfold out0_9
  rw [View.canon_unit_zero hz]
  simp only [View.ld_unit_zero (S := S256x512) hz, View.ld_unit_zero (S := S256x1024) hz, View.ld_unit_zero (S := S1x1024) hz,
    View.ld_unit_zero (S := S512x4096) hz, View.ld_unit_zero (S := S1024x4096) hz]
  funext j
  obtain ⟨r, q, rfl⟩ : ∃ (r : Fin 256) (q : Fin 1024), j = ix2 r q := ⟨j 0, j 1, eq_ix2 j⟩
  refine (cell_at m c t r q).trans ?_
  show _ = cellOut m c (((cfg0.win 9).blk t).view.emb (ix2 r q))
  rw [emb9]
  rfl

/-! ## The 32 blocks tile the rows -/

theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v7_0).slice (win0_8.rect t)).set ↔ _
  rw [View.set_slice_whole, Rect.mem_set_unit]
  exact Iff.rfl

theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v7_1).slice (win0_9.rect t)).set ↔ _
  rw [View.set_slice_whole, Rect.mem_set_unit]
  exact Iff.rfl

/-- The point whose block holds row `p` is `p / 256`. -/
def pointOf (i : S8192x1024.Idx) : Fin cfg0.N := ⟨(i 0).val / 256, by have h := idx2_lt0 i; have e : cfg0.N = 32 := N_0; omega⟩

theorem cover8 (i : S8192x1024.Idx) : ∃ t : Fin cfg0.N, (cfg0.win 8).flush t = true ∧ i ∈ ((cfg0.win 8).blk t).view.set := by
  refine ⟨pointOf i, flush0_8 _, ?_⟩
  rw [mem_blk8]
  obtain ⟨-, -, -, -, -, -, -, -, -, -, -, -, -, -, -, -, e80, e81, e90, e91⟩ := idx_facts (pointOf i)
  have hp : (pointOf i).val = (i 0).val / 256 := rfl
  have h0 := idx2_lt0 i
  have h1 := idx2_lt1 i
  intro a
  match a with
  | ⟨0, _⟩ => show win0_8.index (pointOf i) (0 : Fin 2) * 256 ≤ (i 0).val ∧ (i 0).val < win0_8.index (pointOf i) (0 : Fin 2) * 256 + 256; omega
  | ⟨1, _⟩ => show win0_8.index (pointOf i) (1 : Fin 2) * 1024 ≤ (i 1).val ∧ (i 1).val < win0_8.index (pointOf i) (1 : Fin 2) * 1024 + 1024; omega

theorem cover9 (i : S8192x1024.Idx) : ∃ t : Fin cfg0.N, (cfg0.win 9).flush t = true ∧ i ∈ ((cfg0.win 9).blk t).view.set := by
  refine ⟨pointOf i, flush0_9 _, ?_⟩
  rw [mem_blk9]
  obtain ⟨-, -, -, -, -, -, -, -, -, -, -, -, -, -, -, -, e80, e81, e90, e91⟩ := idx_facts (pointOf i)
  have hp : (pointOf i).val = (i 0).val / 256 := rfl
  have h0 := idx2_lt0 i
  have h1 := idx2_lt1 i
  intro a
  match a with
  | ⟨0, _⟩ => show win0_9.index (pointOf i) (0 : Fin 2) * 256 ≤ (i 0).val ∧ (i 0).val < win0_9.index (pointOf i) (0 : Fin 2) * 256 + 256; omega
  | ⟨1, _⟩ => show win0_9.index (pointOf i) (1 : Fin 2) * 1024 ≤ (i 1).val ∧ (i 1).val < win0_9.index (pointOf i) (1 : Fin 2) * 1024 + 1024; omega

/-! ## The arrays after the run -/

theorem final8 (c : Dev nD) : (dats m 0 c).arrAt 8 cfg0.N = hiddenOut m c :=
  (dats m 0 c).arrAt_eq_of_cover 8 (hiddenOut m c) (fun t _ => flushed8_eq m c t) cover8

theorem final9 (c : Dev nD) : (dats m 0 c).arrAt 9 cfg0.N = cellOut m c :=
  (dats m 0 c).arrAt_eq_of_cover 9 (cellOut m c) (fun t _ => flushed9_eq m c t) cover9

/-- The run of the idealized kernel program: both results at the specification's arrays of the arguments, the
    arguments as launched. -/
theorem run : θ_run defs (onTc (τ := τ) (main (F := Ideal))) ⟨m, fun _ => 0, ρ⟩ fun r => ∀ c : Dev nD,
      r.2.mem ((c.tc : Thread nD τ).loc main_v7_0) = hiddenOut m c
      ∧ r.2.mem ((c.tc : Thread nD τ).loc main_v7_1) = cellOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.KValue

end
-- ==== Proof.RefIsSpec.lean ====
/-
  The plain-jnp peephole LSTM cell is the specification, entry by entry.

  At batch row `p` and hidden unit `q` the reference's new cell value is `Cert.Peephole.cellArr` and its new hidden
  value is `Cert.Peephole.hiddenArr` of the fourteen argument arrays. Each gate's two `dot_general` results, read at
  `(p, q)`, are the sums over the contracted coordinate of row `p` of the left operand against column `q` of the
  right one, that is `Cert.Peephole.pre`; a peephole weight broadcast along the batch reads its entry `q`; and the
  reference's spelling `1 / (1 + exp (-z))` of the logistic function, with the constant one written as its f32 bit
  pattern, is `Ideal.logistic z` by definition.
-/
import proofs.«155535_j8873402434093_2_alg».proof.Proof.Gen.ReferenceIdeal.Read
import proofs.«155535_j8873402434093_2_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- The reference's logistic function at a scalar: one divided by one plus the exponential of the negated argument,
    the constant one being the f32 word `0x3F800000`, is `Ideal.logistic`. -/
theorem host_logistic (z : Ideal .f32) :
    FloatOps.hostDivf (FloatOps.ofBits (F := Ideal) .f32 0x3F800000#32)
        (FloatOps.addf (FloatOps.ofBits (F := Ideal) .f32 0x3F800000#32)
          (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

/-- The input-side product at `(p, q)`: row `p` of the input against column `q` of the weight. -/
theorem dot_input_apply (x : (⟨S8192x512, .f32⟩ : BufTy).Contents (Elt Ideal)) (w : (⟨S512x1024, .f32⟩ : BufTy).Contents (Elt Ideal)) (p : Fin 8192) (q : Fin 1024) :
    val_main_v0 (F := Ideal) x w (ix2 p q) = ∑ d : Fin 512, x (ix2 p d) * w (ix2 d q) := by
  rw [val_main_v0_apply]
  refine Finset.sum_congr rfl fun d _ => ?_
  have el : lidx_main_v0 (ix2 p q) d = ix2 p d :=
    funext fun a => Fin.ext (by match a with | ⟨0, _⟩ => rfl | ⟨1, _⟩ => rfl)
  have er : ridx_main_v0 (ix2 p q) d = ix2 d q :=
    funext fun a => Fin.ext (by match a with | ⟨0, _⟩ => rfl | ⟨1, _⟩ => rfl)
  rw [el, er]

/-- The hidden-side product at `(p, q)`: row `p` of the hidden state against column `q` of the weight. -/
theorem dot_hidden_apply (h : (⟨S8192x1024, .f32⟩ : BufTy).Contents (Elt Ideal)) (w : (⟨S1024x1024, .f32⟩ : BufTy).Contents (Elt Ideal)) (p : Fin 8192) (q : Fin 1024) :
    val_main_v1 (F := Ideal) h w (ix2 p q) = ∑ d : Fin 1024, h (ix2 p d) * w (ix2 d q) := by
  rw [val_main_v1_apply]
  refine Finset.sum_congr rfl fun d _ => ?_
  have el : lidx_main_v1 (ix2 p q) d = ix2 p d :=
    funext fun a => Fin.ext (by match a with | ⟨0, _⟩ => rfl | ⟨1, _⟩ => rfl)
  have er : ridx_main_v1 (ix2 p q) d = ix2 d q :=
    funext fun a => Fin.ext (by match a with | ⟨0, _⟩ => rfl | ⟨1, _⟩ => rfl)
  rw [el, er]

/-- A gate's pre-activation without its peephole term, at `(p, q)`: the sum of the two products is
    `Cert.Peephole.pre` of the two rows and the two weight columns. -/
theorem pre_apply (x : (⟨S8192x512, .f32⟩ : BufTy).Contents (Elt Ideal)) (h : (⟨S8192x1024, .f32⟩ : BufTy).Contents (Elt Ideal)) (wi : (⟨S512x1024, .f32⟩ : BufTy).Contents (Elt Ideal)) (wh : (⟨S1024x1024, .f32⟩ : BufTy).Contents (Elt Ideal)) (p : Fin 8192) (q : Fin 1024) :
    FloatOps.addf (F := Ideal) (φ := .f32) (val_main_v0 (F := Ideal) x wi (ix2 p q)) (val_main_v1 (F := Ideal) h wh (ix2 p q))
      = Cert.Peephole.pre (fun d => x (ix2 p d)) (fun d => h (ix2 p d)) (fun d => wi (ix2 d q))
          (fun d => wh (ix2 d q)) := by
  rw [dot_input_apply, dot_hidden_apply]
  rfl

/-- A peephole weight broadcast along the batch reads its entry `q` at `(p, q)`. -/
theorem peephole_apply (w : (⟨S1024, .f32⟩ : BufTy).Contents (Elt Ideal)) (p : Fin 8192) (q : Fin 1024) :
    val_main_v4 (F := Ideal) w (ix2 p q) = w (ix1 q) := by
  rw [val_main_v4_apply, val_main_v3_apply]
  exact congrArg w (funext fun a => Fin.ext (by match a with | ⟨0, _⟩ => rfl))

/-- The reference's new cell state at `(p, q)` is the specification's: the forget gate times the previous cell
    value plus the input gate times the candidate. -/
theorem ref_cell (x0 : (⟨S8192x512, .f32⟩ : BufTy).Contents (Elt Ideal)) (x1 : (⟨S8192x1024, .f32⟩ : BufTy).Contents (Elt Ideal)) (x2 : (⟨S8192x1024, .f32⟩ : BufTy).Contents (Elt Ideal)) (x3 : (⟨S1024, .f32⟩ : BufTy).Contents (Elt Ideal)) (x4 : (⟨S1024, .f32⟩ : BufTy).Contents (Elt Ideal)) (x6 : (⟨S512x1024, .f32⟩ : BufTy).Contents (Elt Ideal)) (x7 : (⟨S1024x1024, .f32⟩ : BufTy).Contents (Elt Ideal)) (x8 : (⟨S512x1024, .f32⟩ : BufTy).Contents (Elt Ideal)) (x9 : (⟨S1024x1024, .f32⟩ : BufTy).Contents (Elt Ideal)) (x10 : (⟨S512x1024, .f32⟩ : BufTy).Contents (Elt Ideal)) (x11 : (⟨S1024x1024, .f32⟩ : BufTy).Contents (Elt Ideal)) (p : Fin 8192) (q : Fin 1024) :
    val_main_v32 (F := Ideal) x0 x1 x2 x3 x4 x6 x7 x8 x9 x10 x11 (ix2 p q)
      = Cert.Peephole.cellArr x0 x1 x2 x3 x4 x6 x7 x8 x9 x10 x11 p q := by
  -- the forget gate: the logistic function of its pre-activation plus the previous cell value times its peephole weight
  have hf : val_main_v12 (F := Ideal) x0 x1 x2 x4 x6 x7 (ix2 p q)
      = Ideal.logistic (Cert.Peephole.pre (fun d => x0 (ix2 p d)) (fun d => x1 (ix2 p d)) (fun d => x6 (ix2 d q)) (fun d => x7 (ix2 d q))
          + x2 (ix2 p q) * x4 (ix1 q)) := by
    rw [val_main_v12_apply, val_main_v11_apply, val_main_cst_0_apply, val_main_v10_apply, val_main_v9_apply,
      val_main_cst_apply, val_main_v8_apply, val_main_v7_apply, host_logistic, val_main_v6_apply, val_main_v2_apply,
      pre_apply, val_main_v5_apply, peephole_apply]
    rfl
  -- the input gate, likewise; every gate's two products and its broadcast peephole weight are the same functions of
  -- their operands as the forget gate's, so the lemmas stated for that gate read them as well
  have hi : val_main_v25 (F := Ideal) x0 x1 x2 x3 x8 x9 (ix2 p q)
      = Ideal.logistic (Cert.Peephole.pre (fun d => x0 (ix2 p d)) (fun d => x1 (ix2 p d)) (fun d => x8 (ix2 d q)) (fun d => x9 (ix2 d q))
          + x2 (ix2 p q) * x3 (ix1 q)) := by
    rw [val_main_v25_apply, val_main_v24_apply, val_main_cst_2_apply, val_main_v23_apply, val_main_v22_apply,
      val_main_cst_1_apply, val_main_v21_apply, val_main_v20_apply, host_logistic, val_main_v19_apply,
      val_main_v15_apply,
      (show FloatOps.addf (F := Ideal) (φ := .f32) (val_main_v13 (F := Ideal) x0 x8 (ix2 p q)) (val_main_v14 (F := Ideal) x1 x9 (ix2 p q))
            = Cert.Peephole.pre (fun d => x0 (ix2 p d)) (fun d => x1 (ix2 p d)) (fun d => x8 (ix2 d q)) (fun d => x9 (ix2 d q))
          from pre_apply x0 x1 x8 x9 p q),
      val_main_v18_apply, (show val_main_v17 (F := Ideal) x3 (ix2 p q) = x3 (ix1 q) from peephole_apply x3 p q)]
    rfl
  -- the candidate: tanh of its pre-activation
  have hg : val_main_v29 (F := Ideal) x0 x1 x10 x11 (ix2 p q)
      = Ideal.tanh (Cert.Peephole.pre (fun d => x0 (ix2 p d)) (fun d => x1 (ix2 p d)) (fun d => x10 (ix2 d q)) (fun d => x11 (ix2 d q))) := by
    rw [val_main_v29_apply, val_main_v28_apply,
      (show FloatOps.addf (F := Ideal) (φ := .f32) (val_main_v26 (F := Ideal) x0 x10 (ix2 p q)) (val_main_v27 (F := Ideal) x1 x11 (ix2 p q))
            = Cert.Peephole.pre (fun d => x0 (ix2 p d)) (fun d => x1 (ix2 p d)) (fun d => x10 (ix2 d q)) (fun d => x11 (ix2 d q))
          from pre_apply x0 x1 x10 x11 p q)]
    rfl
  rw [val_main_v32_apply, val_main_v30_apply, val_main_v31_apply, hf, hi, hg]
  rfl

/-- The reference's new hidden state at `(p, q)` is the specification's: the output gate, which sees the new cell
    value through its peephole weight, times tanh of the new cell value. -/
theorem ref_hidden (x0 : (⟨S8192x512, .f32⟩ : BufTy).Contents (Elt Ideal)) (x1 : (⟨S8192x1024, .f32⟩ : BufTy).Contents (Elt Ideal)) (x2 : (⟨S8192x1024, .f32⟩ : BufTy).Contents (Elt Ideal)) (x3 : (⟨S1024, .f32⟩ : BufTy).Contents (Elt Ideal)) (x4 : (⟨S1024, .f32⟩ : BufTy).Contents (Elt Ideal)) (x5 : (⟨S1024, .f32⟩ : BufTy).Contents (Elt Ideal)) (x6 : (⟨S512x1024, .f32⟩ : BufTy).Contents (Elt Ideal)) (x7 : (⟨S1024x1024, .f32⟩ : BufTy).Contents (Elt Ideal)) (x8 : (⟨S512x1024, .f32⟩ : BufTy).Contents (Elt Ideal)) (x9 : (⟨S1024x1024, .f32⟩ : BufTy).Contents (Elt Ideal)) (x10 : (⟨S512x1024, .f32⟩ : BufTy).Contents (Elt Ideal)) (x11 : (⟨S1024x1024, .f32⟩ : BufTy).Contents (Elt Ideal)) (x12 : (⟨S512x1024, .f32⟩ : BufTy).Contents (Elt Ideal)) (x13 : (⟨S1024x1024, .f32⟩ : BufTy).Contents (Elt Ideal)) (p : Fin 8192) (q : Fin 1024) :
    val_main_v47 (F := Ideal) x0 x1 x2 x3 x4 x5 x6 x7 x8 x9 x10 x11 x12 x13 (ix2 p q)
      = Cert.Peephole.hiddenArr x0 x1 x2 x3 x4 x5 x6 x7 x8 x9 x10 x11 x12 x13 p q := by
  -- the output gate
  have ho : val_main_v45 (F := Ideal) x0 x1 x2 x3 x4 x5 x6 x7 x8 x9 x10 x11 x12 x13 (ix2 p q)
      = Ideal.logistic (Cert.Peephole.pre (fun d => x0 (ix2 p d)) (fun d => x1 (ix2 p d)) (fun d => x12 (ix2 d q)) (fun d => x13 (ix2 d q))
          + Cert.Peephole.cellArr x0 x1 x2 x3 x4 x6 x7 x8 x9 x10 x11 p q * x5 (ix1 q)) := by
    rw [val_main_v45_apply, val_main_v44_apply, val_main_cst_4_apply, val_main_v43_apply, val_main_v42_apply,
      val_main_cst_3_apply, val_main_v41_apply, val_main_v40_apply, host_logistic, val_main_v39_apply,
      val_main_v35_apply,
      (show FloatOps.addf (F := Ideal) (φ := .f32) (val_main_v33 (F := Ideal) x0 x12 (ix2 p q)) (val_main_v34 (F := Ideal) x1 x13 (ix2 p q))
            = Cert.Peephole.pre (fun d => x0 (ix2 p d)) (fun d => x1 (ix2 p d)) (fun d => x12 (ix2 d q)) (fun d => x13 (ix2 d q))
          from pre_apply x0 x1 x12 x13 p q),
      val_main_v38_apply, ref_cell, (show val_main_v37 (F := Ideal) x5 (ix2 p q) = x5 (ix1 q) from peephole_apply x5 p q)]
    rfl
  rw [val_main_v47_apply, ho, val_main_v46_apply, ref_cell]
  rfl

end Cert.ReferenceIdeal.RefValue

end
-- ==== Proof.lean ====
/-
  A peephole LSTM cell as one pallas_call against the same cell in plain jnp, equal on the extended reals.

  The kernel tiles the batch of 8192 rows into 32 blocks of 256. Before the call the host reshapes the three
  peephole vectors to one-row matrices and lays the four gates' input-side weight matrices side by side (and the
  four hidden-side ones), rounding both fused matrices to bf16. The body multiplies a block of input rows and a block
  of hidden rows against the two fused matrices, cuts each product into the four gates' column ranges, and forms
  f = σ(z_f + c·w_cf), i = σ(z_i + c·w_ci), g = tanh(z_g), the new cell value f·c + i·g, o = σ(z_o + cell·w_co) and the
  new hidden value o·tanh(cell). The reference computes the eight products separately and spells σ(z) as
  1 / (1 + exp(−z)).

  On the extended reals a change of float format is the identity, σ is by definition that quotient, column 1024·k + q
  of a product against side-by-side matrices is the row against column q of gate k's own matrix, and the blocks of
  256 rows tile the batch: both programs compute the specification's arrays (Proof/Spec.lean) of the argument arrays,
  entry by entry. No law of arithmetic beyond these identifications is used, so the precondition (finite inputs) is
  never opened.

  The three frames: the two kernel programs run through the library's frame theorem for a one-region pipeline, the
  proof data being each input block kept and each output block one whole store (Proof/FrameKernel.lean,
  Proof/FrameIdeal.lean); the reference's frame is its run with the results dropped. The ideal pass rewrote nothing, so `preserves` is `True`.
-/
import proofs.«155535_j8873402434093_2_alg».proof.Defs
import proofs.«155535_j8873402434093_2_alg».proof.Proof.Gen.Kernel
import proofs.«155535_j8873402434093_2_alg».proof.Proof.Gen.KernelIdeal
import proofs.«155535_j8873402434093_2_alg».proof.Proof.Gen.ReferenceIdeal
import proofs.«155535_j8873402434093_2_alg».proof.Proof.Gen.ReferenceIdeal.Run
import proofs.«155535_j8873402434093_2_alg».proof.Proof.Gen.ReferenceIdeal.Read
import proofs.«155535_j8873402434093_2_alg».proof.Proof.Gen.Pre_finite_inputs
import proofs.«155535_j8873402434093_2_alg».proof.Proof.FrameKernel
import proofs.«155535_j8873402434093_2_alg».proof.Proof.FrameIdeal
import proofs.«155535_j8873402434093_2_alg».proof.Proof.ArrayIdeal
import proofs.«155535_j8873402434093_2_alg».proof.Proof.RefIsSpec
import Idealize.ShloMosaic.Adequacy
import Idealize.ShloMosaic.Init

noncomputable section

namespace Cert.Proof

open Idealize.ShloMosaic Idealize.ShloMosaic.ValueIdx Idealize.SL.Sem

/-- The kernel program as printed runs to the end, faults nowhere and leaves its arguments as launched. -/
theorem frame_p : Cert.frame_Kernel := fun m ρ _ => Cert.Kernel.Fr.frame m ρ

/-- So does its reading on the extended reals. -/
theorem frame_pi : Cert.frame_KernelIdeal := fun m ρ _ => Cert.KernelIdeal.Fr.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the fourteen arguments, the kernel's two result arrays and the reference's are the
    specification's hidden-state and cell-state arrays of those arguments. -/
theorem algebraic : Cert.algebraic_KernelIdeal_ReferenceIdeal := by
  intro m ρ m' ρ' _ hagree
  refine ⟨fun c => Cert.KernelIdeal.KValue.hiddenOut m c, fun c => Cert.KernelIdeal.KValue.cellOut m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v47_eq m' c).trans ?_
    obtain ⟨h0, h1, h2, h3, h4, h5, h6, h7, h8, h9, h10, h11, h12, h13⟩ := hagree c
    rw [h0, h1, h2, h3, h4, h5, h6, h7, h8, h9, h10, h11, h12, h13]
    funext j
    obtain ⟨p, q, rfl⟩ : ∃ (p : Fin 8192) (q : Fin 1024), j = ix2 p q := ⟨j 0, j 1, eq_ix2 j⟩
    exact Cert.ReferenceIdeal.RefValue.ref_hidden _ _ _ _ _ _ _ _ _ _ _ _ _ _ p q
  · refine (Cert.ReferenceIdeal.Read.val_main_v32_eq _ _ _ _ _ _ _ _ _ _ _).trans ?_
    obtain ⟨h0, h1, h2, h3, h4, h5, h6, h7, h8, h9, h10, h11, h12, h13⟩ := hagree c
    rw [h0, h1, h2, h3, h4, h6, h7, h8, h9, h10, h11]
    funext j
    obtain ⟨p, q, rfl⟩ : ∃ (p : Fin 8192) (q : Fin 1024), j = ix2 p q := ⟨j 0, j 1, eq_ix2 j⟩
    exact Cert.ReferenceIdeal.RefValue.ref_cell _ _ _ _ _ _ _ _ _ _ _ p q

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
